-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩
abbrev S1024x2048 : Shape := ⟨2, ![1024, 2048]⟩
abbrev S1024x512 : Shape := ⟨2, ![1024, 512]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S1x512, .f32⟩
  | .hbm, ⟨6, _⟩ => ⟨S8192x512, .bf16⟩
  | .hbm, ⟨7, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S8192x512, .bf16⟩
  | .local _ .vmem, ⟨3, _⟩ => ⟨S512x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v4 : BitVec 32 := Scalar.muli arg1 c2048_i32
  let c0_i32_2 : BitVec 32 := 0#32
  let v5 : BitVec 32 := Scalar.addi v4 c0_i32_2
  v5
def k0_off1 (i : grid0.Coords) (c0_i32_2 : BitVec 32) : Fin 2 → Nat :=
  let arg1 : BitVec 32 := BitVec.ofNat 32 (i 1).val
  let c2048_i32 : BitVec 32 := 2048#32
  let v4 : BitVec 32 := Scalar.muli arg1 c2048_i32
  let v5 : BitVec 32 := Scalar.addi v4 c0_i32_2
  let v6 : BitVec 32 := v5
  let v7 : Index := Scalar.indexCast v6
  let c0_3 : Index := 0#32
  ![v7.toNat, 0]
def k0_mult2 (i : grid0.Coords) : BitVec 32 :=
  let arg1 : BitVec 32 := BitVec.ofNat 32 (i 1).val
  let c2048_i32_9 : BitVec 32 := 2048#32
  let v18 : BitVec 32 := Scalar.muli arg1 c2048_i32_9
  let c1024_i32 : BitVec 32 := 1024#32
  let v19 : BitVec 32 := Scalar.addi v18 c1024_i32
  v19
def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S512x512_S512x512_1_0 : S512x512.Transposes [1, 0] S512x512
  shapeCasts_S512_S1x512 : S512.ShapeCasts S1x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x1024_0_0 : ∀ a, (![0, 0] : Fin 2 → Nat) a + S1024x1024.size a ≤ S1024x2048.size a
  h_S1024x1024 : 0 < S1024x1024.numel
  inb_S1024x2048_S1024x1024_0_1024 : ∀ a, (![0, 1024] : Fin 2 → Nat) a + S1024x1024.size a ≤ S1024x2048.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  hrank0 : 0 < grid0.rank
  k0_mult1_dvd : ∀ i : grid0.Coords, 1024 ∣ (k0_mult1 i).toNat
  k0_off1_inb : ∀ i : grid0.Coords, ∀ (r : Fin 2), ∀ a, (k0_off1 i (BitVec.ofNat 32 (1024 * r.val))) a + S1024x512.size a ≤ S8192x512.size a
  k0_mult2_dvd : ∀ i : grid0.Coords, 1024 ∣ (k0_mult2 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .f32 = 32 ∨ (Rect.block (s := S8192x512) S1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x512, .f32⟩
  | .hbm, ⟨5, _⟩ => ⟨S512x512, .f32⟩
  | .hbm, ⟨6, _⟩ => ⟨S8192x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.Spec.lean ====
/-
  The layer computed by both programs, as ONE function of the four argument arrays, entry by entry, on the
  extended reals: node features `x` [8192, 512], adjacency weights `adj` [8192, 8192], a weight matrix `W`
  [512, 512] stored output-feature major, and a bias `b` [512].

    agg r d   = Σ_k adj[r, k] · x[k, d]                       (aggregate the neighbours' features)
    layer r j = max (Σ_d agg r d · W[j, d] + b[j]) 0           (linear map by Wᵀ, bias, rectifier)

  Every sum is a finite sum in the additive commutative monoid of the extended reals; nothing here needs the
  entries to be finite.
-/
import Idealize.ShloMosaic.PureOps.Ideal
import Idealize.ShloMosaic.Lib.ValueIdx

noncomputable section

open scoped BigOperators

namespace Cert.Layer

open Idealize.ShloMosaic Idealize.ShloMosaic.ValueIdx

/-- Feature `d` of node `r` after aggregation: the features of all 8192 nodes weighted by row `r` of the adjacency. -/
def agg (x : (⟨2, ![8192, 512]⟩ : Shape).Idx → EReal) (adj : (⟨2, ![8192, 8192]⟩ : Shape).Idx → EReal)
    (r : Fin 8192) (d : Fin 512) : EReal :=
  ∑ k : Fin 8192, adj (ix2 r k) * x (ix2 k d)

/-- The layer's output at entry `i = (r, j)`: the aggregated row times column `j` of `Wᵀ`, plus the bias, rectified. -/
def layer (x : (⟨2, ![8192, 512]⟩ : Shape).Idx → EReal) (adj : (⟨2, ![8192, 8192]⟩ : Shape).Idx → EReal)
    (W : (⟨2, ![512, 512]⟩ : Shape).Idx → EReal) (b : (⟨1, ![512]⟩ : Shape).Idx → EReal) :
    (⟨2, ![8192, 512]⟩ : Shape).Idx → EReal :=
  fun i => max ((∑ d : Fin 512, agg x adj (i 0) d * W (ix2 (i 1) d)) + b (ix1 (i 1))) 0

end Cert.Layer

end
-- ==== Proof.RefIsSpec.lean ====
/-
  The reference computes the layer.

  Read one operation at a time, the reference's result at entry `i = (r, j)` is
  `max (Σ_d (Σ_k adj[r, k] · x[k, d]) · Wᵀ[d, j] + b[j]) 0`: two matrix products as plain sums over their
  contracted axis, the transposed weight read at the swapped index, the bias broadcast along the rows, and the
  rectifier as a maximum with the zero constant. That is `Cert.Layer.layer` once the composed index functions are
  identified with indices built from coordinates.
-/
import proofs.«134795_j37692632990313_2_alg».proof.Proof.Gen.ReferenceIdeal.Read
import proofs.«134795_j37692632990313_2_alg».proof.Proof.Spec

noncomputable section

open scoped BigOperators

namespace Cert.ReferenceIdeal.RefValue

open Cert.ReferenceIdeal Cert.ReferenceIdeal.Read Idealize.ShloMosaic Idealize.ShloMosaic.ValueIdx

/-- Left operand of the first product, under the second product's left index: `adj[r, k']`. -/
theorem lidx_agg (i : S8192x512.Idx) (k : Fin 512) (k' : Fin 8192) :
    lidx_main_v0 (lidx_main_v2 i k) k' = ix2 (i 0) k' :=
  funext fun a => match a with | ⟨0, _⟩ => rfl | ⟨1, _⟩ => rfl

/-- Right operand of the first product: `x[k', d]`. -/
theorem ridx_agg (i : S8192x512.Idx) (k : Fin 512) (k' : Fin 8192) :
    ridx_main_v0 (lidx_main_v2 i k) k' = ix2 k' k :=
  funext fun a => match a with | ⟨0, _⟩ => rfl | ⟨1, _⟩ => rfl

/-- The transposed weight under the second product's right index: `W[j, d]`. -/
theorem idx_weight (i : S8192x512.Idx) (k : Fin 512) :
    idx_main_v1 (ridx_main_v2 i k) = ix2 (i 1) k :=
  funext fun a => match a with | ⟨0, _⟩ => rfl | ⟨1, _⟩ => rfl

/-- The bias under the two broadcasts: `b[j]`. -/
theorem idx_bias (i : S8192x512.Idx) : idx_main_v3 (idx_main_v4 i) = ix1 (i 1) :=
  funext fun a => match a with | ⟨0, _⟩ => rfl

/-- The reference's result term, at the ideal values, is the layer. -/
theorem ref_eq_layer (x0 : (⟨S8192x512, .f32⟩ : BufTy).Contents (Elt Ideal)) (x1 : (⟨S8192x8192, .f32⟩ : BufTy).Contents (Elt Ideal))
    (x2 : (⟨S512x512, .f32⟩ : BufTy).Contents (Elt Ideal)) (x3 : (⟨S512, .f32⟩ : BufTy).Contents (Elt Ideal)) :
    val_main_v6 (F := Ideal) x0 x1 x2 x3 = Cert.Layer.layer x0 x1 x2 x3 := by
  funext i
  rw [val_main_v6_apply, val_main_v5_apply, val_main_v2_apply, val_main_v4_apply, val_main_v3_apply,
    val_main_call0_v0_apply, val_main_call0_cst_apply]
  simp only [val_main_v0_apply, val_main_v1_apply, lidx_agg, ridx_agg, idx_weight, idx_bias,
    Ideal.addf_def, Ideal.maximumf_def, Ideal.ofBits_def, Ideal.ofBits_zero_f32]
  rfl

end Cert.ReferenceIdeal.RefValue

end
-- ==== Proof.Pieces.lean ====
/-
  What one grid point leaves behind, as pure functions of what it loads.

  A grid point `(mi, k)` holds rows `1024·mi …` and columns `2048·k …` of the adjacency as a [1024, 2048] block `a`,
  and the whole feature array `X` [8192, 512]. It adds to a [1024, 512] accumulator, in two halves, the product of
  the block's low 1024 columns with rows `2048·k …` of `X`, then of its high 1024 columns with rows
  `2048·k + 1024 …` of `X` (`step`). The accumulator is filled with zeros at `k = 0` and carried from point to point
  otherwise; at `k = 3` the output block is the accumulator times the transposed weight, plus the bias row, rectified.
  Every store of the body is through the whole of its buffer, so what a buffer holds after the body is the payload
  of the last store into it, and a whole-buffer load between two stores reads the payload of the store before it.
-/
import proofs.«134795_j37692632990313_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

/-- The zero offsets of a rank-2 buffer. -/
theorem zero2 : (![0, 0] : Fin 2 → ℕ) = fun _ => 0 := by funext a; fin_cases a <;> rfl

/-- A whole-buffer load after stores of which the newest was through the whole buffer reads that store's payload. -/
theorem readCov_cons_whole {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- The low and the high 1024 columns of an adjacency block. -/
abbrev colsLo : Rect S1024x2048 := Rect.unit (s := S1024x2048) ![0, 0] S1024x1024.size inb_S1024x2048_S1024x1024_0_0
abbrev colsHi : Rect S1024x2048 := Rect.unit (s := S1024x2048) ![0, 1024] S1024x1024.size inb_S1024x2048_S1024x1024_0_1024
/-- The 1024 feature rows that meet the low columns at grid point `i`, and those that meet the high columns. -/
abbrev rowsLo (i : grid0.Coords) : Rect S8192x512 := Rect.unit (s := S8192x512) (k0_off1 i 0#32) S1024x512.size (k0_off1_inb i 0)
abbrev rowsHi (i : grid0.Coords) : Rect S8192x512 := Rect.unit (s := S8192x512) (k0_off1 i 1024#32) S1024x512.size (k0_off1_inb i 1)

/-- One grid point's contribution on top of the accumulator `acc`: first the low half's product, then the high half's. -/
def step (i : grid0.Coords) (a : Vec F S1024x2048 .f32) (X : Vec F S8192x512 .bf16) (acc : Vec F S1024x512 .f32) :
    Vec F S1024x512 .f32 :=
  k0_pay4 (View.ld a colsHi) (View.ld X (rowsHi i)) (k0_pay3 (View.ld a colsLo) (View.ld X (rowsLo i)) acc)

/-- At a first point of a row block the accumulator ends at one step over the zero fill. -/
theorem scratch_first (c : Dev nD) (i : grid0.Coords) (arg2 : Memref sig .tc .vmem S1024x2048 .f32) (harg2 : arg2.IsWhole) (arg3 : Memref sig .tc .vmem S8192x512 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i) (x0 : Vec F S1024x2048 .f32) (x1 : Vec F S8192x512 .bf16) (x2 : Vec F S512x512 .f32) (x3 : Vec F S1x512 .f32) :
    sout0_A_0 c i arg2 harg2 arg3 harg3 arg4 harg4 arg5 harg5 arg6 harg6 arg7 harg7 hc0 hc1 x0 x1 x2 x3 = step i x0 x1 k0_pay2 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero zero2]
  simp only [View.readAt_eq_ld, harg2.read_unread, harg3.read_unread, readCov_cons_whole (S := S1024x512) _ zero2,
    View.readCov_unit_zero (S := S1024x512) _ zero2]
  rfl

/-- At a middle point it ends at one step over what the point before left. -/
theorem scratch_middle (c : Dev nD) (i : grid0.Coords) (arg2 : Memref sig .tc .vmem S1024x2048 .f32) (harg2 : arg2.IsWhole) (arg3 : Memref sig .tc .vmem S8192x512 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i) (x0 : Vec F S1024x2048 .f32) (x1 : Vec F S8192x512 .bf16) (x2 : Vec F S512x512 .f32) (x3 : Vec F S1x512 .f32) (xs0 : Vec F S1024x512 .f32) :
    sout0_B_0 c i arg2 harg2 arg3 harg3 arg4 harg4 arg5 harg5 arg6 harg6 arg7 harg7 hc0 hc1 x0 x1 x2 x3 xs0 = step i x0 x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_cons_unit_zero zero2]
  simp only [View.readAt_eq_ld, harg2.read_unread, harg3.read_unread, harg7.read_unread, readCov_cons_whole (S := S1024x512) _ zero2,
    View.readCov_unit_zero (S := S1024x512) _ zero2, View.ld_unit_zero (S := S1024x512) zero2]
  rfl

/-- At a last point likewise: the epilogue only reads the accumulator. -/
theorem scratch_last (c : Dev nD) (i : grid0.Coords) (arg2 : Memref sig .tc .vmem S1024x2048 .f32) (harg2 : arg2.IsWhole) (arg3 : Memref sig .tc .vmem S8192x512 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i) (x0 : Vec F S1024x2048 .f32) (x1 : Vec F S8192x512 .bf16) (x2 : Vec F S512x512 .f32) (x3 : Vec F S1x512 .f32) (xs0 : Vec F S1024x512 .f32) :
    sout0_C_0 c i arg2 harg2 arg3 harg3 arg4 harg4 arg5 harg5 arg6 harg6 arg7 harg7 hc0 hc1 x0 x1 x2 x3 xs0 = step i x0 x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_cons_unit_zero zero2]
  simp only [View.readAt_eq_ld, harg2.read_unread, harg3.read_unread, harg7.read_unread, readCov_cons_whole (S := S1024x512) _ zero2,
    View.readCov_unit_zero (S := S1024x512) _ zero2, View.ld_unit_zero (S := S1024x512) zero2]
  rfl

/-- At a last point the output block is the epilogue of the finished accumulator, the weight block and the bias row. -/
theorem out_last (c : Dev nD) (i : grid0.Coords) (arg2 : Memref sig .tc .vmem S1024x2048 .f32) (harg2 : arg2.IsWhole) (arg3 : Memref sig .tc .vmem S8192x512 .bf16) (harg3 : arg3.IsWhole) (arg4 : Memref sig .tc .vmem S512x512 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i) (x0 : Vec F S1024x2048 .f32) (x1 : Vec F S8192x512 .bf16) (x2 : Vec F S512x512 .f32) (x3 : Vec F S1x512 .f32) (xs0 : Vec F S1024x512 .f32) :
    out0_C_4 c i arg2 harg2 arg3 harg3 arg4 harg4 arg5 harg5 arg6 harg6 arg7 harg7 hc0 hc1 x0 x1 x2 x3 xs0 = k0_pay1 (step i x0 x1 xs0) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero zero2]
  simp only [View.readAt_eq_ld, harg2.read_unread, harg3.read_unread, harg4.read_unread, harg5.read_unread,
    harg7.read_unread, readCov_cons_whole (S := S1024x512) _ zero2, View.readCov_unit_zero (S := S1024x512) _ zero2,
    View.ld_unit_zero (S := S1024x512) zero2, View.ld_unit_zero (S := S512x512) zero2, View.ld_unit_zero (S := S1x512) zero2]
  rfl

end Cert.KernelIdeal.Pieces

end
-- ==== Proof.PayloadAt.lean ====
/-
  The body's arithmetic at one entry, on the extended reals.

  At the ideal values a change of float format is the identity and a matrix product into a zero block is the plain
  sum over the contracted axis. So, at entry `(p, q)` of a [1024, 512] block:
    * adding one half's product to the accumulator adds `Σ_s a[p, s] · X[s, q]` over the half's 1024 columns;
    * the epilogue gives `max (Σ_d acc[p, d] · Wt[d, q] + bias[0, q]) 0`.
-/
import proofs.«134795_j37692632990313_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.PayloadAt

open Cert.KernelIdeal Cert.KernelIdeal.Gen Idealize.ShloMosaic Idealize.ShloMosaic.TcCoe Idealize.ShloMosaic.ValueIdx

/-- The product of one half of an adjacency block with its feature rows: operand indices at output entry `j` and contraction index `k`. -/
theorem lhs_half_0 (j : S1024x512.Idx) (k : dot_S1024x1024_S1024x512_S1024x512_1_0_0_1_n_n.contr.Idx) : (dot_S1024x1024_S1024x512_S1024x512_1_0_0_1_n_n.lhsIdx j k 0).val = (j 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_half_1 (j : S1024x512.Idx) (k : dot_S1024x1024_S1024x512_S1024x512_1_0_0_1_n_n.contr.Idx) : (dot_S1024x1024_S1024x512_S1024x512_1_0_0_1_n_n.lhsIdx j k 1).val = (k ⟨0, by decide⟩).val :=
  dot_S1024x1024_S1024x512_S1024x512_1_0_0_1_n_n.lhsIdx_val_of_single rfl j k
theorem rhs_half_0 (j : S1024x512.Idx) (k : dot_S1024x1024_S1024x512_S1024x512_1_0_0_1_n_n.contr.Idx) : (dot_S1024x1024_S1024x512_S1024x512_1_0_0_1_n_n.rhsIdx j k 0).val = (k ⟨0, by decide⟩).val :=
  dot_S1024x1024_S1024x512_S1024x512_1_0_0_1_n_n.rhsIdx_val_of_single rfl j k
theorem rhs_half_1 (j : S1024x512.Idx) (k : dot_S1024x1024_S1024x512_S1024x512_1_0_0_1_n_n.contr.Idx) : (dot_S1024x1024_S1024x512_S1024x512_1_0_0_1_n_n.rhsIdx j k 1).val = (j 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product of one half of an adjacency block with its feature rows into the zero block, at entry `(p, q)`: the sum over the contracted axis of the operands' products. -/
theorem half_apply {φ₁ φ₂ : FTy} (prec : Option ContractPrecision) (l : FVec Ideal S1024x1024 φ₁) (r : FVec Ideal S1024x512 φ₂)
    (p : Fin 1024) (q : Fin 512) :
    matmul dot_S1024x1024_S1024x512_S1024x512_1_0_0_1_n_n prec l r (constant (F := Ideal) S1024x512 .f32 0x00000000#32) (ix2 p q)
      = ∑ s : Fin 1024, l (ix2 p s) * r (ix2 s q) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 p q) ((ValueIdx.contrEquiv1 dot_S1024x1024_S1024x512_S1024x512_1_0_0_1_n_n 1024 rfl rfl).symm k) = ix2 p k := funext fun a => Fin.ext (by
    match a with
    | ⟨0, _⟩ => exact lhs_half_0 _ _
    | ⟨1, _⟩ => exact (lhs_half_1 _ _).trans hk)
  have er : dot_S1024x1024_S1024x512_S1024x512_1_0_0_1_n_n.rhsIdx (ix2 p q) ((ValueIdx.contrEquiv1 dot_S1024x1024_S1024x512_S1024x512_1_0_0_1_n_n 1024 rfl rfl).symm k) = ix2 k q := funext fun a => Fin.ext (by
    match a with
    | ⟨0, _⟩ => exact (rhs_half_0 _ _).trans hk
    | ⟨1, _⟩ => exact rhs_half_1 _ _)
  rw [el, er]

/-- The product of the accumulator with the transposed weight: operand indices at output entry `j` and contraction index `k`. -/
theorem lhs_proj_0 (j : S1024x512.Idx) (k : dot_S1024x512_S512x512_S1024x512_1_0_0_1_n_n.contr.Idx) : (dot_S1024x512_S512x512_S1024x512_1_0_0_1_n_n.lhsIdx j k 0).val = (j 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_proj_1 (j : S1024x512.Idx) (k : dot_S1024x512_S512x512_S1024x512_1_0_0_1_n_n.contr.Idx) : (dot_S1024x512_S512x512_S1024x512_1_0_0_1_n_n.lhsIdx j k 1).val = (k ⟨0, by decide⟩).val :=
  dot_S1024x512_S512x512_S1024x512_1_0_0_1_n_n.lhsIdx_val_of_single rfl j k
theorem rhs_proj_0 (j : S1024x512.Idx) (k : dot_S1024x512_S512x512_S1024x512_1_0_0_1_n_n.contr.Idx) : (dot_S1024x512_S512x512_S1024x512_1_0_0_1_n_n.rhsIdx j k 0).val = (k ⟨0, by decide⟩).val :=
  dot_S1024x512_S512x512_S1024x512_1_0_0_1_n_n.rhsIdx_val_of_single rfl j k
theorem rhs_proj_1 (j : S1024x512.Idx) (k : dot_S1024x512_S512x512_S1024x512_1_0_0_1_n_n.contr.Idx) : (dot_S1024x512_S512x512_S1024x512_1_0_0_1_n_n.rhsIdx j k 1).val = (j 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product of the accumulator with the transposed weight into the zero block, at entry `(p, q)`: the sum over the contracted axis of the operands' products. -/
theorem proj_apply {φ₁ φ₂ : FTy} (prec : Option ContractPrecision) (l : FVec Ideal S1024x512 φ₁) (r : FVec Ideal S512x512 φ₂)
    (p : Fin 1024) (q : Fin 512) :
    matmul dot_S1024x512_S512x512_S1024x512_1_0_0_1_n_n prec l r (constant (F := Ideal) S1024x512 .f32 0x00000000#32) (ix2 p q)
      = ∑ s : Fin 512, l (ix2 p s) * r (ix2 s q) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact lhs_proj_0 _ _
    | ⟨1, _⟩ => exact (lhs_proj_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (rhs_proj_0 _ _).trans hk
    | ⟨1, _⟩ => exact rhs_proj_1 _ _)
  rw [el, er]

/-- Adding one half's product to the accumulator, at entry `(p, q)`. -/
theorem addHalfLo_apply (a : Vec Ideal S1024x1024 .f32) (X : Vec Ideal S1024x512 .bf16) (acc : Vec Ideal S1024x512 .f32)
    (p : Fin 1024) (q : Fin 512) :
    k0_pay3 (F := Ideal) a X acc (ix2 p q) = acc (ix2 p q) + ∑ s : Fin 1024, a (ix2 p s) * X (ix2 s q) := by
  unfold k0_pay3
  simp only [shapeCast_self]
  refine (addf_apply _ _ _).trans ?_
  exact congrArg (acc (ix2 p q) + ·) (half_apply none _ _ p q)

/-- The same for the second half (the body spells it a second time). -/
theorem addHalfHi_apply (a : Vec Ideal S1024x1024 .f32) (X : Vec Ideal S1024x512 .bf16) (acc : Vec Ideal S1024x512 .f32)
    (p : Fin 1024) (q : Fin 512) :
    k0_pay4 (F := Ideal) a X acc (ix2 p q) = acc (ix2 p q) + ∑ s : Fin 1024, a (ix2 p s) * X (ix2 s q) := by
  unfold k0_pay4
  simp only [shapeCast_self]
  refine (addf_apply _ _ _).trans ?_
  exact congrArg (acc (ix2 p q) + ·) (half_apply none _ _ p q)

/-- The zero fill, at any entry. -/
theorem zeroFill_apply (j : S1024x512.Idx) : k0_pay2 (F := Ideal) j = 0 := by
  unfold k0_pay2
  simp only [shapeCast_self]
  exact Ideal.ofBits_zero_f32

/-- The bias row broadcast down the block's rows, at entry `(p, q)`. -/
theorem biasRow_apply (v : Vec Ideal S1x512 .f32) (p : Fin 1024) (q : Fin 512) :
    broadcastTo S1024x512 v broadcasts_S1x512_S1024x512 (ix2 p q) = v (ix2 (0 : Fin 1) q) :=
  broadcastTo_apply v broadcasts_S1x512_S1024x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else _; rw [if_neg (by decide)]; rfl)

/-- The epilogue at entry `(p, q)`. -/
theorem epilogue_apply (acc : Vec Ideal S1024x512 .f32) (Wt : Vec Ideal S512x512 .f32) (bias : Vec Ideal S1x512 .f32)
    (p : Fin 1024) (q : Fin 512) :
    k0_pay1 (F := Ideal) acc Wt bias (ix2 p q)
      = max ((∑ d : Fin 512, acc (ix2 p d) * Wt (ix2 d q)) + bias (ix2 (0 : Fin 1) q)) 0 := by
  unfold k0_pay1
  simp only [shapeCast_self]
  refine (maximumf_apply _ _ _).trans ?_
  refine congrArg₂ max ?_ ?_
  · refine (addf_apply _ _ _).trans ?_
    exact congrArg₂ (· + ·) (proj_apply (some .fp32) _ _ p q) (biasRow_apply _ p q)
  · exact Ideal.ofBits_zero_f32

end Cert.KernelIdeal.PayloadAt

end
-- ==== Proof.Windows.lean ====
/-
  What each window's block holds at a grid point, entry by entry, in terms of the argument arrays.

  Grid point `t = 4·mi + k` (row block `mi`, reduction step `k`):
    * the adjacency window holds rows `1024·mi …`, columns `2048·k …` of `adj`;
    * the feature window holds the whole feature array, which the host converted to a narrower float format
      before the launch — at the ideal values the conversion is the identity, so it holds `x`;
    * the weight window holds the whole transposed weight: entry `(d, q)` is `W[q, d]`;
    * the bias window holds the bias reshaped to one row: entry `(0, q)` is `b[q]`;
    * the in-body feature loads start at rows `2048·k` and `2048·k + 1024`.
  The block indices and the load offsets are computed by the program's own integer arithmetic on the grid
  coordinates; their closed forms are decided once over the 32 grid points.
-/
import proofs.«134795_j37692632990313_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Windows

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The arrays the host wrote before the launch -/

/-- The weight window's array is the transposed weight. -/
theorem V_weightT (c : Dev nD) : (V m c main_v0 : S512x512.Idx → EReal)
    = transpose S512x512 [1, 0] (m ((c : Thread nD τ).loc main_arg2)) transposes_S512x512_S512x512_1_0 := by
  dsimp only [Gen.V, Gen.hostOps0]; after_results <;> rfl

/-- The bias window's array is the bias as one row. -/
theorem V_biasRow (c : Dev nD) : (V m c main_v1 : S1x512.Idx → EReal)
    = shapeCast S1x512 (m ((c : Thread nD τ).loc main_arg3)) shapeCasts_S512_S1x512 := by
  dsimp only [Gen.V, Gen.hostOps0]; after_results <;> rfl

/-- The feature window's array is the features after the host's change of float format. -/
theorem V_features (c : Dev nD) : (V m c main_v2 : S8192x512.Idx → EReal)
    = truncf (F := Ideal) (s := S8192x512) (φ := .f32) .bf16 (m ((c : Thread nD τ).loc main_arg0)) bitsLt_bf16_f32 := by
  dsimp only [Gen.V, Gen.hostOps0]; after_results <;> rfl

/-! ## The program's index maps and load offsets, in closed form -/

theorem grid_facts : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0
    ∧ k0_off1 (grid0.coords t) 0#32 = ![2048 * (t.val % 4), 0]
    ∧ k0_off1 (grid0.coords t) 1024#32 = ![2048 * (t.val % 4) + 1024, 0] :=
  (by decide +kernel : ∀ t : Fin grid0.N, _)

/-! ## The blocks, entry by entry -/

/-- The adjacency block at point `t`: entry `(p, u)` is `adj[1024·(t/4) + p, 2048·(t%4) + u]`. -/
theorem adjBlock_apply (c : Dev nD) (t : Fin cfg0.N) (p : Fin 1024) (u : Fin 2048) (r k : Fin 8192)
    (hr : r.val = 1024 * (t.val / 4) + p.val) (hk : k.val = 2048 * (t.val % 4) + u.val) :
    (iblk m c 0 t : Vec Ideal S1024x2048 .f32) (ix2 p u) = (m ((c : Thread nD τ).loc main_arg1)) (ix2 r k) := by
  obtain ⟨e0, e1, -⟩ := grid_facts t
  unfold iblk
  rw [View.read_apply]
  show V m c main_arg1 _ = _
  rw [V_main_arg1]
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 2048 + 1 * u.val = k.val; rw [e1, hk]; omega

/-- The feature block at any point: entry `(k, q)` is `x[k, q]`. -/
theorem featBlock_apply (c : Dev nD) (t : Fin cfg0.N) (k : Fin 8192) (q : Fin 512) :
    (iblk m c 1 t : Vec Ideal S8192x512 .bf16) (ix2 k q) = (m ((c : Thread nD τ).loc main_arg0)) (ix2 k q) := by
  obtain ⟨-, -, e2, e3, -⟩ := grid_facts t
  unfold iblk
  rw [View.read_apply]
  show V m c main_v2 _ = _
  rw [V_features]
  show (m ((c : Thread nD τ).loc main_arg0)) (((cfg0.win 1).blk t).view.emb (ix2 k q)) = _
  refine congrArg _ (funext fun a => Fin.ext ?_)
  match a with
  | ⟨0, _⟩ => show win0_1.index t (0 : Fin 2) * 8192 + 1 * k.val = k.val; rw [e2]; omega
  | ⟨1, _⟩ => show win0_1.index t (1 : Fin 2) * 512 + 1 * q.val = q.val; rw [e3]; omega

/-- The weight block at any point: entry `(d, q)` is `W[q, d]`. -/
theorem weightBlock_apply (c : Dev nD) (t : Fin cfg0.N) (d q : Fin 512) :
    (iblk m c 2 t : Vec Ideal S512x512 .f32) (ix2 d q) = (m ((c : Thread nD τ).loc main_arg2)) (ix2 q d) := by
  obtain ⟨-, -, -, -, e4, e5, -⟩ := grid_facts t
  unfold iblk
  rw [View.read_apply]
  show V m c main_v0 _ = _
  have he : ((cfg0.win 2).blk t).view.emb (ix2 d q) = (ix2 d q : S512x512.Idx) := funext fun a => Fin.ext (by
    match a with
    | ⟨0, _⟩ => show win0_2.index t (0 : Fin 2) * 512 + 1 * d.val = d.val; rw [e4]; omega
    | ⟨1, _⟩ => show win0_2.index t (1 : Fin 2) * 512 + 1 * q.val = q.val; rw [e5]; omega)
  refine (congrArg (V m c main_v0) he).trans ?_
  rw [V_weightT]
  exact transpose_apply [1, 0] _ transposes_S512x512_S512x512_1_0 (ix2 d q) (ix2 q d) (fun b => match b with
    | ⟨0, _⟩ => rfl
    | ⟨1, _⟩ => rfl)

/-- The bias block at any point: entry `(0, q)` is `b[q]`. -/
theorem biasBlock_apply (c : Dev nD) (t : Fin cfg0.N) (q : Fin 512) :
    (iblk m c 3 t : Vec Ideal S1x512 .f32) (ix2 (0 : Fin 1) q) = (m ((c : Thread nD τ).loc main_arg3)) (ix1 q) := by
  obtain ⟨-, -, -, -, -, -, e6, e7, -⟩ := grid_facts t
  unfold iblk
  rw [View.read_apply]
  show V m c main_v1 _ = _
  have he : ((cfg0.win 3).blk t).view.emb (ix2 (0 : Fin 1) q) = (ix2 (0 : Fin 1) q : S1x512.Idx) := funext fun a => Fin.ext (by
    match a with
    | ⟨0, _⟩ => show win0_3.index t (0 : Fin 2) * 1 + 1 * 0 = 0; rw [e6]
    | ⟨1, _⟩ => show win0_3.index t (1 : Fin 2) * 512 + 1 * q.val = q.val; rw [e7]; omega)
  refine (congrArg (V m c main_v1) he).trans ?_
  rw [V_biasRow]
  refine shapeCast_apply _ shapeCasts_S512_S1x512 (ix2 (0 : Fin 1) q) (ix1 q) ?_
  rw [Shape.rowMajor_val_one, Shape.rowMajor_val_two]
  show q.val = 0 * 512 + q.val
  omega

end Cert.KernelIdeal.Windows

end
-- ==== Proof.LibBlockSum.lean ====
/-
  Regrouping a finite sum into consecutive blocks.

  A sum over `Fin (n * b)` is the sum, over the `n` blocks, of each block's `b` consecutive terms: entry
  `q + b * j` is term `q` of block `j`. Only commutativity and associativity of `+` are used, so the law
  holds in every additive commutative monoid — in particular on the extended reals, where regrouping a sum
  needs no finiteness of its terms.
-/
import Mathlib.Data.Fintype.BigOperators
import Mathlib.Logic.Equiv.Fin.Basic

namespace Cert.BlockSum

/-- A sum over `Fin (n * b)` split into `n` consecutive blocks of length `b`. -/
theorem sum_blocks {M : Type*} [AddCommMonoid M] (n b : ℕ) (f : Fin (n * b) → M) :
    ∑ k, f k = ∑ j : Fin n, ∑ q : Fin b, f (finProdFinEquiv (j, q)) := by
  rw [← Fintype.sum_prod_type' (fun j q => f (finProdFinEquiv (j, q)))]
  exact (Equiv.sum_comp finProdFinEquiv f).symm

/-- The position of term `q` of block `j`. -/
theorem finProdFinEquiv_val {n b : ℕ} (j : Fin n) (q : Fin b) :
    (finProdFinEquiv (j, q)).val = q.val + b * j.val := rfl

end Cert.BlockSum
-- ==== Proof.Chunks.lean ====
/-
  The aggregation sum, taken 1024 neighbours at a time.

  `agg r d = Σ_k adj[r, k] · x[k, d]` over all 8192 nodes `k`. Cut the nodes into eight consecutive chunks of 1024:
  chunk `h` holds nodes `1024·h … 1024·h + 1023`. `psum n` is the sum of the first `n` chunks added one after
  the other onto zero, in order — the order in which a carried accumulator receives them. Regrouping a finite
  sum into consecutive blocks is valid in any additive commutative monoid, so `agg = psum 8` on the extended reals
  with no assumption on the entries.
-/
import proofs.«134795_j37692632990313_2_alg».proof.Proof.Spec
import proofs.«134795_j37692632990313_2_alg».proof.Proof.LibBlockSum
import Mathlib.Algebra.BigOperators.Fin

noncomputable section

open scoped BigOperators

namespace Cert.Layer

open Idealize.ShloMosaic Idealize.ShloMosaic.ValueIdx

/-- Node `s` of chunk `h`. (Total in `h`: past the eighth chunk it wraps around, which no use below does.) -/
def colN (h : ℕ) (s : Fin 1024) : Fin 8192 := ⟨(1024 * h + s.val) % 8192, Nat.mod_lt _ (by decide)⟩

/-- Chunk `h`'s share of `agg r d`. -/
def chunkN (x : (⟨2, ![8192, 512]⟩ : Shape).Idx → EReal) (adj : (⟨2, ![8192, 8192]⟩ : Shape).Idx → EReal)
    (r : Fin 8192) (d : Fin 512) (h : ℕ) : EReal :=
  ∑ s : Fin 1024, adj (ix2 r (colN h s)) * x (ix2 (colN h s) d)

/-- The first `n` chunks added in order onto zero. -/
def psum (x : (⟨2, ![8192, 512]⟩ : Shape).Idx → EReal) (adj : (⟨2, ![8192, 8192]⟩ : Shape).Idx → EReal)
    (r : Fin 8192) (d : Fin 512) : ℕ → EReal
  | 0 => 0
  | n + 1 => psum x adj r d n + chunkN x adj r d n

variable (x : (⟨2, ![8192, 512]⟩ : Shape).Idx → EReal) (adj : (⟨2, ![8192, 8192]⟩ : Shape).Idx → EReal)
  (r : Fin 8192) (d : Fin 512)

theorem psum_zero : psum x adj r d 0 = 0 := rfl

/-- Two more chunks, one after the other: what one grid point adds. -/
theorem psum_add_two (n : ℕ) :
    psum x adj r d (n + 2) = (psum x adj r d n + chunkN x adj r d n) + chunkN x adj r d (n + 1) := rfl

/-- All eight chunks make up the whole sum. -/
theorem agg_eq_psum : agg x adj r d = psum x adj r d 8 := by
  unfold agg
  refine (Cert.BlockSum.sum_blocks 8 1024 (fun k : Fin 8192 => adj (ix2 r k) * x (ix2 k d))).trans ?_
  have e : ∀ h : Fin 8,
      (∑ s : Fin 1024, (fun k : Fin 8192 => adj (ix2 r k) * x (ix2 k d)) (finProdFinEquiv (h, s))) = chunkN x adj r d h.val :=
    fun h => Finset.sum_congr rfl fun s _ => by
      have hc : (finProdFinEquiv (h, s) : Fin 8192) = colN h.val s := Fin.ext (by
        show s.val + 1024 * h.val = (1024 * h.val + s.val) % 8192
        have := h.isLt; have := s.isLt; omega)
      show adj (ix2 r (finProdFinEquiv (h, s))) * x (ix2 (finProdFinEquiv (h, s)) d) = _
      rw [hc]
  rw [Finset.sum_congr rfl (fun h _ => e h), Fin.sum_univ_eight]
  show _ = 0 + chunkN x adj r d 0 + chunkN x adj r d 1 + chunkN x adj r d 2 + chunkN x adj r d 3 + chunkN x adj r d 4 + chunkN x adj r d 5 + chunkN x adj r d 6 + chunkN x adj r d 7
  rw [zero_add]
  rfl

end Cert.Layer

end
-- ==== Proof.Accum.lean ====
/-
  The carried accumulator, point by point, and the block a last point writes back.

  Along the four points `4·mi, …, 4·mi + 3` of row block `mi` the accumulator starts from a zero fill and every
  point adds, at entry `(p, d)`, chunks `2k` and `2k + 1` of row `r = 1024·mi + p`'s aggregation sum. After point
  `4·mi + j` it therefore holds the first `2j + 2` chunks added in order — `psum (2j + 2)` — and after the last
  point all eight, which is the whole aggregation. The last point's epilogue multiplies by the transposed
  weight, adds the bias row and rectifies: the block it writes back is the layer's rows `1024·mi …`.
-/
import proofs.«134795_j37692632990313_2_alg».proof.Proof.Gen.KernelIdeal.Value
import proofs.«134795_j37692632990313_2_alg».proof.Proof.Pieces
import proofs.«134795_j37692632990313_2_alg».proof.Proof.PayloadAt
import proofs.«134795_j37692632990313_2_alg».proof.Proof.Windows
import proofs.«134795_j37692632990313_2_alg».proof.Proof.Chunks

noncomputable section

open scoped BigOperators

namespace Cert.KernelIdeal.Accum

open Cert.KernelIdeal Cert.KernelIdeal.Gen Idealize.ShloMosaic Idealize.ShloMosaic.TcCoe Idealize.ShloMosaic.ValueIdx
open Idealize.SL.Sem Cert.Layer
open Cert.KernelIdeal.Pieces Cert.KernelIdeal.PayloadAt Cert.KernelIdeal.Windows

variable (m : (ℓ : Loc nD τ sig) → Buf (Elt Ideal) ℓ)

/-- The four argument arrays as launched, as functions on literal index types. -/
abbrev feats (c : Dev nD) : (⟨2, ![8192, 512]⟩ : Shape).Idx → EReal := m ((c : Thread nD τ).loc main_arg0)
abbrev adjm (c : Dev nD) : (⟨2, ![8192, 8192]⟩ : Shape).Idx → EReal := m ((c : Thread nD τ).loc main_arg1)
abbrev weight (c : Dev nD) : (⟨2, ![512, 512]⟩ : Shape).Idx → EReal := m ((c : Thread nD τ).loc main_arg2)
abbrev bias (c : Dev nD) : (⟨1, ![512]⟩ : Shape).Idx → EReal := m ((c : Thread nD τ).loc main_arg3)

/-- One step at entry `(p, d)`, over any adjacency block and feature array: the accumulator's entry plus the low
    half's and then the high half's sum of products. -/
theorem step_apply (i : grid0.Coords) (a : Vec Ideal S1024x2048 .f32) (X : Vec Ideal S8192x512 .bf16)
    (acc : Vec Ideal S1024x512 .f32) (p : Fin 1024) (d : Fin 512) :
    step i a X acc (ix2 p d)
      = (acc (ix2 p d) + ∑ s : Fin 1024, View.ld a colsLo (ix2 p s) * View.ld X (rowsLo i) (ix2 s d))
        + ∑ s : Fin 1024, View.ld a colsHi (ix2 p s) * View.ld X (rowsHi i) (ix2 s d) := by
  unfold step
  rw [addHalfHi_apply, addHalfLo_apply]

/-- At grid point `t` the step adds chunks `2·(t % 4)` and `2·(t % 4) + 1` of row `r = 1024·(t / 4) + p`. -/
theorem pointStep_apply (c : Dev nD) (t : Fin cfg0.N) (acc : Vec Ideal S1024x512 .f32) (p : Fin 1024) (d : Fin 512)
    (r : Fin 8192) (hr : r.val = 1024 * (t.val / 4) + p.val) :
    step (grid0.coords t) (iblk m c 0 t) (iblk m c 1 t) acc (ix2 p d)
      = (acc (ix2 p d) + chunkN (feats m c) (adjm m c) r d (2 * (t.val % 4)))
        + chunkN (feats m c) (adjm m c) r d (2 * (t.val % 4) + 1) := by
  obtain ⟨-, -, -, -, -, -, -, -, -, -, eLo, eHi⟩ := grid_facts t
  have oLo0 : k0_off1 (grid0.coords t) 0#32 0 = 2048 * (t.val % 4) := congrFun eLo 0
  have oLo1 : k0_off1 (grid0.coords t) 0#32 1 = 0 := congrFun eLo 1
  have oHi0 : k0_off1 (grid0.coords t) 1024#32 0 = 2048 * (t.val % 4) + 1024 := congrFun eHi 0
  have oHi1 : k0_off1 (grid0.coords t) 1024#32 1 = 0 := congrFun eHi 1
  refine (step_apply (grid0.coords t) (iblk m c 0 t) (iblk m c 1 t) acc p d).trans ?_
  refine congrArg₂ (· + ·) (congrArg (acc (ix2 p d) + ·) ?_) ?_
  · -- the low 1024 columns of the block meet feature rows 2048·k …
    unfold chunkN
    refine Finset.sum_congr rfl fun s _ => congrArg₂ (· * ·) ?_ ?_
    · show (iblk m c 0 t : Vec Ideal S1024x2048 .f32) (colsLo.idx (ix2 p s)) = _
      have e : colsLo.idx (ix2 p s) = (ix2 p (⟨s.val, by have := s.isLt; omega⟩ : Fin 2048) : S1024x2048.Idx) :=
        funext fun a => Fin.ext (by
          match a with
          | ⟨0, _⟩ => show 0 + 1 * p.val = p.val; omega
          | ⟨1, _⟩ => show 0 + 1 * s.val = s.val; omega)
      refine (congrArg (iblk m c 0 t : Vec Ideal S1024x2048 .f32) e).trans ?_
      exact adjBlock_apply m c t p _ r (colN (2 * (t.val % 4)) s) hr (by
        show (1024 * (2 * (t.val % 4)) + s.val) % 8192 = 2048 * (t.val % 4) + (s.val)
        have := s.isLt; omega)
    · show (iblk m c 1 t : Vec Ideal S8192x512 .bf16) ((rowsLo (grid0.coords t)).idx (ix2 s d)) = _
      have e : (rowsLo (grid0.coords t)).idx (ix2 s d) = (ix2 (colN (2 * (t.val % 4)) s) d : S8192x512.Idx) :=
        funext fun a => Fin.ext (by
          match a with
          | ⟨0, _⟩ =>
            show k0_off1 (grid0.coords t) 0#32 0 + 1 * s.val = (1024 * (2 * (t.val % 4)) + s.val) % 8192
            rw [oLo0]; have := s.isLt; omega
          | ⟨1, _⟩ => show k0_off1 (grid0.coords t) 0#32 1 + 1 * d.val = d.val; rw [oLo1]; omega)
      refine (congrArg (iblk m c 1 t : Vec Ideal S8192x512 .bf16) e).trans ?_
      exact featBlock_apply m c t _ d
  · -- the high 1024 columns meet feature rows 2048·k + 1024 …
    unfold chunkN
    refine Finset.sum_congr rfl fun s _ => congrArg₂ (· * ·) ?_ ?_
    · show (iblk m c 0 t : Vec Ideal S1024x2048 .f32) (colsHi.idx (ix2 p s)) = _
      have e : colsHi.idx (ix2 p s) = (ix2 p (⟨1024 + s.val, by have := s.isLt; omega⟩ : Fin 2048) : S1024x2048.Idx) :=
        funext fun a => Fin.ext (by
          match a with
          | ⟨0, _⟩ => show 0 + 1 * p.val = p.val; omega
          | ⟨1, _⟩ => show 1024 + 1 * s.val = 1024 + s.val; omega)
      refine (congrArg (iblk m c 0 t : Vec Ideal S1024x2048 .f32) e).trans ?_
      exact adjBlock_apply m c t p _ r (colN (2 * (t.val % 4) + 1) s) hr (by
        show (1024 * (2 * (t.val % 4) + 1) + s.val) % 8192 = 2048 * (t.val % 4) + (1024 + s.val)
        have := s.isLt; omega)
    · show (iblk m c 1 t : Vec Ideal S8192x512 .bf16) ((rowsHi (grid0.coords t)).idx (ix2 s d)) = _
      have e : (rowsHi (grid0.coords t)).idx (ix2 s d) = (ix2 (colN (2 * (t.val % 4) + 1) s) d : S8192x512.Idx) :=
        funext fun a => Fin.ext (by
          match a with
          | ⟨0, _⟩ =>
            show k0_off1 (grid0.coords t) 1024#32 0 + 1 * s.val = (1024 * (2 * (t.val % 4) + 1) + s.val) % 8192
            rw [oHi0]; have := s.isLt; omega
          | ⟨1, _⟩ => show k0_off1 (grid0.coords t) 1024#32 1 + 1 * d.val = d.val; rw [oHi1]; omega)
      refine (congrArg (iblk m c 1 t : Vec Ideal S8192x512 .bf16) e).trans ?_
      exact featBlock_apply m c t _ d

/-- At a first point of a row block the accumulator is one step over the zero fill, whatever it held. -/
theorem scAt_first (c : Dev nD) (n : ℕ) (hn : n < cfg0.N) (h0 : n % 4 = 0) (acc : Vec Ideal S1024x512 .f32) :
    Value.scAt0_0 m c n hn acc
      = step (grid0.coords ⟨n, hn⟩) (iblk m c 0 ⟨n, hn⟩) (iblk m c 1 ⟨n, hn⟩) (k0_pay2 (F := Ideal)) := by
  have h1 : ¬n % 4 = 3 := by omega
  unfold Value.scAt0_0
  rw [dif_pos h0, dif_neg h1]
  exact scratch_first (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) ((hcond0_0 (⟨n, hn⟩ : Fin cfg0.N)).mpr h0)
    (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N))

/-- At every other point it is one step over what the point before left. -/
theorem scAt_next (c : Dev nD) (n : ℕ) (hn : n < cfg0.N) (h0 : ¬n % 4 = 0) (acc : Vec Ideal S1024x512 .f32) :
    Value.scAt0_0 m c n hn acc
      = step (grid0.coords ⟨n, hn⟩) (iblk m c 0 ⟨n, hn⟩) (iblk m c 1 ⟨n, hn⟩) acc := by
  unfold Value.scAt0_0
  rw [dif_neg h0]
  by_cases h1 : n % 4 = 3
  · rw [dif_pos h1]
    exact scratch_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) (fun h => h0 ((hcond0_0 (⟨n, hn⟩ : Fin cfg0.N)).mp h))
      ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) acc
  · rw [dif_neg h1]
    exact scratch_middle (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) (fun h => h0 ((hcond0_0 (⟨n, hn⟩ : Fin cfg0.N)).mp h))
      (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) acc

/-- After point `4·mi + j` the accumulator's entry `(p, d)` holds the first `2j + 2` chunks of row `1024·mi + p`. -/
theorem fold_apply (c : Dev nD) (mi : ℕ) : ∀ (j : ℕ) (_ : j < 4) (h : 4 * mi + j < cfg0.N) (p : Fin 1024) (d : Fin 512)
    (r : Fin 8192) (_ : r.val = 1024 * mi + p.val),
    Pipeline.accAt (fun n h => Value.scAt0_0 m c n h (VS0_0.read (Elt Ideal) VS0_0.junk)) (Value.scAt0_0 m c) (4 * mi) j h (ix2 p d)
      = psum (feats m c) (adjm m c) r d (2 * j + 2)
  | 0, _, h, p, d, r, hr => by
    rw [Pipeline.accAt_zero, scAt_first m c (4 * mi) h (by omega)]
    refine (pointStep_apply m c ⟨4 * mi, h⟩ _ p d r (by show r.val = 1024 * ((4 * mi) / 4) + p.val; omega)).trans ?_
    rw [zeroFill_apply]
    show (0 + chunkN _ _ r d (2 * ((4 * mi) % 4))) + chunkN _ _ r d (2 * ((4 * mi) % 4) + 1) = _
    rw [show (4 * mi) % 4 = 0 by omega]
    rfl
  | j + 1, hj, h, p, d, r, hr => by
    rw [Pipeline.accAt_succ, scAt_next m c (4 * mi + (j + 1)) h (by omega)]
    refine (pointStep_apply m c ⟨4 * mi + (j + 1), h⟩ _ p d r (by
      show r.val = 1024 * ((4 * mi + (j + 1)) / 4) + p.val; omega)).trans ?_
    rw [fold_apply c mi j (by omega) _ p d r hr]
    show (psum _ _ r d (2 * j + 2) + chunkN _ _ r d (2 * ((4 * mi + (j + 1)) % 4)))
        + chunkN _ _ r d (2 * ((4 * mi + (j + 1)) % 4) + 1) = psum _ _ r d (2 * (j + 1) + 2)
    rw [show (4 * mi + (j + 1)) % 4 = j + 1 by omega, show 2 * (j + 1) = 2 * j + 2 by omega]
    exact (psum_add_two _ _ r d (2 * j + 2)).symm

/-- What the accumulator holds after any point `t`, at entry `(p, d)`. -/
theorem scratchAfter_apply (c : Dev nD) (t : Fin cfg0.N) (p : Fin 1024) (d : Fin 512) (r : Fin 8192)
    (hr : r.val = 1024 * (t.val / 4) + p.val) :
    (outsAt0 m c t.val t.isLt).2 (ix2 p d) = psum (feats m c) (adjm m c) r d (2 * (t.val % 4) + 2) := by
  rw [Value.soutsAt0_0_eq m c t]
  exact fold_apply m c (t.val / 4) (t.val % 4) (Nat.mod_lt _ (by decide)) _ p d r hr

/-- The block a last point (`t % 4 = 3`) writes back: at entry `(p, q)` the layer at `(1024·(t / 4) + p, q)`. -/
theorem outBlock_apply (c : Dev nD) (t : Fin cfg0.N) (h0 : ¬t.val % 4 = 0) (h3 : t.val % 4 = 3) (p : Fin 1024) (q : Fin 512)
    (r : Fin 8192) (hr : r.val = 1024 * (t.val / 4) + p.val) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t)
        (outsAt0 m c (t.val - 1) (Nat.lt_of_le_of_lt (Nat.sub_le _ _) t.isLt)).2 (ix2 p q)
      = layer (feats m c) (adjm m c) (weight m c) (bias m c) (ix2 r q) := by
  rw [out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h3) (iblk m c 0 t) (iblk m c 1 t) (iblk m c 2 t) (iblk m c 3 t)
    (outsAt0 m c (t.val - 1) (Nat.lt_of_le_of_lt (Nat.sub_le _ _) t.isLt)).2]
  rw [epilogue_apply]
  unfold layer
  refine congrArg₂ max (congrArg₂ (· + ·) (Finset.sum_congr rfl fun d _ => congrArg₂ (· * ·) ?_ (weightBlock_apply m c t d q))
    (biasBlock_apply m c t q)) rfl
  -- the accumulator the epilogue reads: what the point before left (six chunks) plus this point's two
  have hN : t.val < 32 := lt_of_lt_of_eq t.isLt N_0
  have hprev : (outsAt0 m c (t.val - 1) (Nat.lt_of_le_of_lt (Nat.sub_le _ _) t.isLt)).2 (ix2 p d) = psum (feats m c) (adjm m c) r d (2 * ((t.val - 1) % 4) + 2) :=
    scratchAfter_apply m c ⟨t.val - 1, Nat.lt_of_le_of_lt (Nat.sub_le _ _) t.isLt⟩ p d r (by
      show r.val = 1024 * ((t.val - 1) / 4) + p.val; omega)
  have e6 : 2 * ((t.val - 1) % 4) + 2 = 6 := by omega
  have e6' : 2 * (t.val % 4) = 6 := by omega
  have e7 : 2 * (t.val % 4) + 1 = 7 := by omega
  calc step (grid0.coords t) (iblk m c 0 t) (iblk m c 1 t) (outsAt0 m c (t.val - 1) (Nat.lt_of_le_of_lt (Nat.sub_le _ _) t.isLt)).2 (ix2 p d)
      = ((outsAt0 m c (t.val - 1) (Nat.lt_of_le_of_lt (Nat.sub_le _ _) t.isLt)).2 (ix2 p d) + chunkN (feats m c) (adjm m c) r d (2 * (t.val % 4)))
          + chunkN (feats m c) (adjm m c) r d (2 * (t.val % 4) + 1) := pointStep_apply m c t _ p d r hr
    _ = (psum (feats m c) (adjm m c) r d 6 + chunkN (feats m c) (adjm m c) r d 6) + chunkN (feats m c) (adjm m c) r d 7 := by
        rw [hprev, e6, e7, e6']
    _ = psum (feats m c) (adjm m c) r d 8 := (psum_add_two (feats m c) (adjm m c) r d 6).symm
    _ = agg (feats m c) (adjm m c) r d := (agg_eq_psum (feats m c) (adjm m c) r d).symm

end Cert.KernelIdeal.Accum

end
-- ==== Proof.Blocks.lean ====
/-
  From the blocks to the result array, and the kernel's run.

  The output window's block at grid point `t = 4·mi + k` is rows `1024·mi … 1024·mi + 1023` of the result, all 512
  columns; it is written back only at `k = 3`, when the row block's accumulation is complete. What that write-back
  carries is the layer's rows `1024·mi …`, i.e. the layer read through the block. Every row `r` of the result lies
  in the block of the flushing point `4·(r / 1024) + 3`, so the flushed blocks cover the array and the result array
  ends holding the layer of the launched arguments.
-/
import proofs.«134795_j37692632990313_2_alg».proof.Proof.Accum

noncomputable section

namespace Cert.KernelIdeal.Blocks

open Cert.KernelIdeal Cert.KernelIdeal.Gen Idealize.ShloMosaic Idealize.ShloMosaic.TcCoe Idealize.ShloMosaic.ValueIdx
open Idealize.SL.Sem Cert.Layer
open Idealize.ShloMosaic.Pipeline (Dat)
open Cert.KernelIdeal.Accum Cert.KernelIdeal.Windows

variable (m : (ℓ : Loc nD τ sig) → Buf (Elt Ideal) ℓ) (ρ : Dev nD → PrngReg)

/-- The layer of the arguments as launched, as contents of the result array. -/
abbrev result (c : Dev nD) : Buf (Elt Ideal) ((c : Thread nD τ).loc main_v3) :=
  layer (feats m c) (adjm m c) (weight m c) (bias m c)

/-- What a flushing point writes back is the layer read through its block. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have h0 : ¬t.val % 4 = 0 := by omega
  have hN : t.val < 32 := lt_of_lt_of_eq t.isLt N_0
  obtain ⟨-, -, -, -, -, -, -, -, e8, e9, -⟩ := grid_facts t
  rw [Value.flushed4_C m c t h0 h3]
  funext j
  obtain ⟨p, q, rfl⟩ : ∃ (p : Fin 1024) (q : Fin 512), j = ix2 p q := ⟨j 0, j 1, eq_ix2 j⟩
  have he : ((cfg0.win 4).blk t).view.emb (ix2 p q)
      = (ix2 (⟨1024 * (t.val / 4) + p.val, by have := p.isLt; omega⟩ : Fin 8192) q : S8192x512.Idx) :=
    funext fun a => Fin.ext (by
      match a with
      | ⟨0, _⟩ => show win0_4.index t (0 : Fin 2) * 1024 + 1 * p.val = 1024 * (t.val / 4) + p.val; rw [e8]; omega
      | ⟨1, _⟩ => show win0_4.index t (1 : Fin 2) * 512 + 1 * q.val = q.val; rw [e9]; omega)
  refine (outBlock_apply m c t h0 h3 p q ⟨1024 * (t.val / 4) + p.val, by have := p.isLt; omega⟩ rfl).trans ?_
  exact (congrArg (result m c) he).symm

/-- An entry of the result lies in point `t`'s block iff each coordinate is in the block's range on its axis. -/
theorem mem_blk (t : Fin cfg0.N) (i : S8192x512.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v3).slice (win0_4.rect t)).set ↔ _
  rw [View.set_slice_whole, Rect.mem_set_unit]
  exact Iff.rfl

/-- Every entry of the result is in the block of a flushing point: row `r` in that of point `4·(r / 1024) + 3`. -/
theorem cover (i : S8192x512.Idx) :
    ∃ t : Fin cfg0.N, (cfg0.win 4).flush t = true ∧ i ∈ ((cfg0.win 4).blk t).view.set := by
  have hi0 : (i 0).val < 8192 := (i 0).isLt
  have hi1 : (i 1).val < 512 := (i 1).isLt
  have hN : cfg0.N = 32 := N_0
  obtain ⟨t, ht⟩ : ∃ t : Fin cfg0.N, t.val = 4 * ((i 0).val / 1024) + 3 := ⟨⟨4 * ((i 0).val / 1024) + 3, by rw [hN]; omega⟩, rfl⟩
  obtain ⟨-, -, -, -, -, -, -, -, e8, e9, -⟩ := grid_facts t
  refine ⟨t, (flush0_4 t).mpr (by omega), ?_⟩
  rw [mem_blk]
  intro a
  match a with
  | ⟨0, _⟩ =>
    show win0_4.index t (0 : Fin 2) * 1024 ≤ (i 0).val ∧ (i 0).val < win0_4.index t (0 : Fin 2) * 1024 + 1024
    rw [e8]; omega
  | ⟨1, _⟩ =>
    show win0_4.index t (1 : Fin 2) * 512 ≤ (i 1).val ∧ (i 1).val < win0_4.index t (1 : Fin 2) * 512 + 512
    rw [e9]; omega

/-- The result array after the run is the layer of the arguments as launched. -/
theorem final (c : Dev nD) : (dats m 0 c).arrAt 4 cfg0.N = result m c :=
  (dats m 0 c).arrAt_eq_of_cover 4 (result m c) (flushed_eq m c) cover

/-- The kernel's run at the ideal values: every weakly fair execution ends with the result array at the layer of
    the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.lean ====
/-
  Both programs compute one graph-convolution layer, `relu ((adj · x) · Wᵀ + b)`, and at the ideal values (floats
  as extended reals, every operation exact, a change of float format the identity) they compute the same function
  of their arguments.

  The reference does it with two whole matrix products. The kernel walks a grid of 8 row blocks × 4 reduction
  steps: at each step it adds to a [1024, 512] accumulator, carried between steps and zeroed at the first, the
  products of two 1024-column halves of an adjacency block with the matching 1024 rows of the features; at the
  last step of a row block it multiplies the accumulator by the transposed weight, adds the bias and rectifies.
  So the kernel receives the 8192 terms of each aggregation sum in eight chunks of 1024 added in order onto zero,
  where the reference sums them at once — equal because a finite sum on the extended reals may be regrouped into
  consecutive blocks (commutativity and associativity of `+` only, so the finiteness of the inputs is never used).

    Spec       the layer as one function of the four argument arrays
    RefIsSpec  the reference's result term is that function
    Chunks     the aggregation sum as eight chunks added in order
    Pieces     what one grid point leaves in the accumulator and the output block, as functions of its loads
    PayloadAt  the body's arithmetic at one entry
    Windows    what each window's block holds, entry by entry, in terms of the arguments
    Accum      the accumulator after each point, and the block a last point writes back
    Blocks     the flushed blocks cover the result array; the kernel's run
-/
import proofs.«134795_j37692632990313_2_alg».proof.Defs
import proofs.«134795_j37692632990313_2_alg».proof.Proof.Gen.Kernel
import proofs.«134795_j37692632990313_2_alg».proof.Proof.Gen.Kernel.Frame
import proofs.«134795_j37692632990313_2_alg».proof.Proof.Gen.KernelIdeal
import proofs.«134795_j37692632990313_2_alg».proof.Proof.Gen.KernelIdeal.Frame
import proofs.«134795_j37692632990313_2_alg».proof.Proof.Gen.KernelIdeal.Value
import proofs.«134795_j37692632990313_2_alg».proof.Proof.Gen.ReferenceIdeal
import proofs.«134795_j37692632990313_2_alg».proof.Proof.Gen.ReferenceIdeal.Run
import proofs.«134795_j37692632990313_2_alg».proof.Proof.Gen.ReferenceIdeal.Read
import proofs.«134795_j37692632990313_2_alg».proof.Proof.Gen.Pre_finite_inputs
import proofs.«134795_j37692632990313_2_alg».proof.Proof.RefIsSpec
import proofs.«134795_j37692632990313_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the arguments both programs end with the result array at the layer of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq_layer, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
